-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x32 .f32) (main_arg1 : IVec S2x1600000 32) (main_arg2 : FVec F S32x32 .f32) (main_arg3 : FVec F S32 .f32) (main_arg4 : FVec F S32x32 .f32) (main_arg5 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg2
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_v13 main_v16
-- ==== Kernel.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 86
  | .vmem => 16
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x32, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x32, .f32⟩
  | .hbm, ⟨59, _⟩ => ⟨S1700000x1, .f32⟩
  | .hbm, ⟨60, _⟩ => ⟨S1700000x32, .f32⟩
  | .hbm, ⟨61, _⟩ => ⟨S1700000x32, .f32⟩
  | .hbm, ⟨62, _⟩ => ⟨S_, .f32⟩
  | .hbm, ⟨63, _⟩ => ⟨S100000x32, .f32⟩
  | .hbm, ⟨64, _⟩ => ⟨S1700000x1, .i32⟩
  | .hbm, ⟨65, _⟩ => ⟨S100000x32, .f32⟩
  | .hbm, ⟨66, _⟩ => ⟨S1x32, .f32⟩
  | .hbm, ⟨67, _⟩ => ⟨S100000x32, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x32, .f32⟩
  | .hbm, ⟨77, _⟩ => ⟨S1700000x1, .f32⟩
  | .hbm, ⟨78, _⟩ => ⟨S1700000x32, .f32⟩
  | .hbm, ⟨79, _⟩ => ⟨S1700000x32, .f32⟩
  | .hbm, ⟨80, _⟩ => ⟨S_, .f32⟩
  | .hbm, ⟨81, _⟩ => ⟨S100000x32, .f32⟩
  | .hbm, ⟨82, _⟩ => ⟨S1700000x1, .i32⟩
  | .hbm, ⟨83, _⟩ => ⟨S100000x32, .f32⟩
  | .hbm, ⟨84, _⟩ => ⟨S1x32, .f32⟩
  | .hbm, ⟨85, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S32x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S32x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x32_S32x32_S5000x32_1_0_0_1_n_n_wf : DotDims.WF S5000x32 S32x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩

abbrev nBuf : Space → Nat
  | .hbm => 95
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x32, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x32, .f32⟩
  | .hbm, ⟨59, _⟩ => ⟨S1700000x1, .f32⟩
  | .hbm, ⟨60, _⟩ => ⟨S1700000x32, .f32⟩
  | .hbm, ⟨61, _⟩ => ⟨S1700000x32, .f32⟩
  | .hbm, ⟨62, _⟩ => ⟨S_, .f32⟩
  | .hbm, ⟨63, _⟩ => ⟨S100000x32, .f32⟩
  | .hbm, ⟨64, _⟩ => ⟨S1700000x1, .i32⟩
  | .hbm, ⟨65, _⟩ => ⟨S100000x32, .f32⟩
  | .hbm, ⟨66, _⟩ => ⟨S1x32, .f32⟩
  | .hbm, ⟨67, _⟩ => ⟨S100000x32, .f32⟩
  | .hbm, ⟨68, _⟩ => ⟨S100000x32, .f32⟩
  | .hbm, ⟨69, _⟩ => ⟨S_, .f32⟩
  | .hbm, ⟨70, _⟩ => ⟨S100000x32, .f32⟩
  | .hbm, ⟨71, _⟩ => ⟨S100000x32, .f32⟩
  | .hbm, ⟨72, _⟩ => ⟨S100000x32, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x32, .f32⟩
  | .hbm, ⟨82, _⟩ => ⟨S1700000x1, .f32⟩
  | .hbm, ⟨83, _⟩ => ⟨S1700000x32, .f32⟩
  | .hbm, ⟨84, _⟩ => ⟨S1700000x32, .f32⟩
  | .hbm, ⟨85, _⟩ => ⟨S_, .f32⟩
  | .hbm, ⟨86, _⟩ => ⟨S100000x32, .f32⟩
  | .hbm, ⟨87, _⟩ => ⟨S1700000x1, .i32⟩
  | .hbm, ⟨88, _⟩ => ⟨S100000x32, .f32⟩
  | .hbm, ⟨89, _⟩ => ⟨S1x32, .f32⟩
  | .hbm, ⟨90, _⟩ => ⟨S100000x32, .f32⟩
  | .hbm, ⟨91, _⟩ => ⟨S100000x32, .f32⟩
  | .hbm, ⟨92, _⟩ => ⟨S_, .f32⟩
  | .hbm, ⟨93, _⟩ => ⟨S100000x32, .f32⟩
  | .hbm, ⟨94, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x32_S100000x32_1_0_0_1_n_n_wf : DotDims.WF S100000x32 S32x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel's run with its RESULT named. The program's @main is three tiled regions among stretches of host
  operations; the contents of every buffer at each boundary form a fold from the launch memory: a stretch applies its
  operations, a region leaves its input arrays as entered and its output array at what its grid points wrote back.
  Every weakly fair execution terminates without a fault in a state that agrees with the last boundary of that fold on
  every buffer that outlives the regions; read at the result buffer this names the result, and read at the six argument
  buffers it says they end as launched.
-/
import proofs.«167776_j23828478558291_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched: the launch over the program's segments, the last thread state read
    against the final state at the result buffer and at each argument. -/
theorem run_out : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Out

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.HostFold0.lean ====
/-
  The host operations before the first tiled region, read at the buffers later stages use. From the edge list they
  compute the source and target node of every edge with a self loop appended for every node, each node's degree as a
  scatter-add of ones over the targets, its inverse square root where the degree is positive, and the per-edge weight as
  the product of that value gathered at the source and at the target. These are the same operations, in the same
  order, as the reference's first stages, so each buffer holds the reference's stage of the edge list; the six argument
  buffers are written by no operation. The stretch is read in four parts (the node lists; the degree and its inverse
  square root; the selection of the positive degrees; the two gathers and their product), each over ANY contents that
  hold the earlier parts' values at the buffers it reads.
-/
import proofs.«167776_j23828478558291_1_alg».proof.Proof.Gen.KernelIdeal.Frame
import proofs.«167776_j23828478558291_1_alg».proof.Proof.RefRead

set_option maxRecDepth 16384

noncomputable section

namespace Cert.KernelIdeal.Fold

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- A stretch of operations applied in two parts: the first `k`, then the rest. -/
theorem after_split (k : Nat) : ∀ (ops : List (HloOp τ sig (Elt Ideal))) (V : Valuation τ sig (Elt Ideal)),
    StableHlo.after ops V = StableHlo.after (ops.drop k) (StableHlo.after (ops.take k) V) := by
  induction k with
  | zero => intro ops V; rfl
  | succ k ih =>
    intro ops V
    cases ops with
    | nil => rfl
    | cons op ops => exact ih ops _

/-! ## The arguments -/

theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem W3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

/-! ## The node lists -/

/-- The source node of every edge, self loops appended. -/
theorem W3_v3 : W3 m ρ c (Proc.devRef .tc main_v3) = Cert.ReferenceIdeal.ReadP.val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp <;> rfl

/-- The target node of every edge, self loops appended. -/
theorem W3_v6 : W3 m ρ c (Proc.devRef .tc main_v6) = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp <;> rfl

/-! ## The per-edge weight, part by part -/

section Parts

variable (x1 : (⟨Cert.ReferenceIdeal.S2x1600000, .i32⟩ : BufTy).Contents (Elt Ideal)) (Wb : Valuation τ sig (Elt Ideal))

/-- Which nodes have a positive degree: the scatter-add of ones over the targets, compared with zero. -/
theorem degPos_of (h6 : Wb (Proc.devRef .tc main_v6) = Cert.ReferenceIdeal.ReadP.val_main_v6 (F := Ideal) x1) :
    StableHlo.after (List.drop 7 hostOps0) Wb (Proc.devRef .tc main_v12) = Cert.ReferenceIdeal.ReadP.val_main_v12 (F := Ideal) x1 := by
  simp only [hostOps0, List.drop_succ_cons, List.drop_zero]
  after_results_simp
  rw [h6]
  simp only [Cert.ReferenceIdeal.ReadP.val_main_v12, Cert.ReferenceIdeal.ReadP.val_main_v10, Cert.ReferenceIdeal.ReadP.val_main_v11, Cert.ReferenceIdeal.ReadP.val_main_v8, Cert.ReferenceIdeal.ReadP.val_main_v9, Cert.ReferenceIdeal.ReadP.val_main_v7, Cert.ReferenceIdeal.ReadP.val_main_cst, Cert.ReferenceIdeal.ReadP.val_main_cst_0, Cert.ReferenceIdeal.ReadP.val_main_cst_1]
  rfl

/-- The inverse square root of the degree kept away from zero. -/
theorem degRsqrt_of (h6 : Wb (Proc.devRef .tc main_v6) = Cert.ReferenceIdeal.ReadP.val_main_v6 (F := Ideal) x1) :
    StableHlo.after (List.drop 7 hostOps0) Wb (Proc.devRef .tc main_v15) = Cert.ReferenceIdeal.ReadP.val_main_v15 (F := Ideal) x1 := by
  simp only [hostOps0, List.drop_succ_cons, List.drop_zero]
  after_results_simp
  rw [h6]
  simp only [Cert.ReferenceIdeal.ReadP.val_main_v15, Cert.ReferenceIdeal.ReadP.val_main_v14, Cert.ReferenceIdeal.ReadP.val_main_v13, Cert.ReferenceIdeal.ReadP.val_main_cst_2, Cert.ReferenceIdeal.ReadP.val_main_v10, Cert.ReferenceIdeal.ReadP.val_main_v8, Cert.ReferenceIdeal.ReadP.val_main_v9, Cert.ReferenceIdeal.ReadP.val_main_v7, Cert.ReferenceIdeal.ReadP.val_main_cst, Cert.ReferenceIdeal.ReadP.val_main_cst_0]
  rfl

/-- The zero the selection falls back on. -/
theorem zero_of : StableHlo.after (List.drop 7 hostOps0) Wb (Proc.devRef .tc main_cst_3) = Cert.ReferenceIdeal.ReadP.val_main_cst_3 (F := Ideal) := by
  simp only [hostOps0, List.drop_succ_cons, List.drop_zero]
  after_results_simp <;> rfl

/-- The later operations of the first stretch leave the node lists alone. -/
theorem keep3_of : StableHlo.after (List.drop 7 hostOps0) Wb (Proc.devRef .tc main_v3) = Wb (Proc.devRef .tc main_v3) := by
  simp only [hostOps0, List.drop_succ_cons, List.drop_zero]
  after_results_simp <;> rfl
theorem keep6_of : StableHlo.after (List.drop 7 hostOps0) Wb (Proc.devRef .tc main_v6) = Wb (Proc.devRef .tc main_v6) := by
  simp only [hostOps0, List.drop_succ_cons, List.drop_zero]
  after_results_simp <;> rfl

/-- The inverse square root where the degree is positive, zero elsewhere. -/
theorem dis_of (h12 : Wb (Proc.devRef .tc main_v12) = Cert.ReferenceIdeal.ReadP.val_main_v12 (F := Ideal) x1)
    (h15 : Wb (Proc.devRef .tc main_v15) = Cert.ReferenceIdeal.ReadP.val_main_v15 (F := Ideal) x1)
    (hz : Wb (Proc.devRef .tc main_cst_3) = Cert.ReferenceIdeal.ReadP.val_main_cst_3 (F := Ideal)) :
    StableHlo.after hostOps0_1 Wb (Proc.devRef .tc main_v16) = Cert.ReferenceIdeal.ReadP.val_main_v16 (F := Ideal) x1 := by
  have hsel : StableHlo.after hostOps0_1 Wb (Proc.devRef .tc main_v16)
      = select (Wb (Proc.devRef .tc main_v12)) (Wb (Proc.devRef .tc main_v15))
          (broadcastInDim S100000 ![] bcast_S_S100000 (Wb (Proc.devRef .tc main_cst_3))) := by
    after_results_simp <;> rfl
  rw [hsel, h12, h15, hz]
  simp only [Cert.ReferenceIdeal.ReadP.val_main_v16, Cert.ReferenceIdeal.ReadP.val_main_call0_v1, Cert.ReferenceIdeal.ReadP.val_main_call0_v0]
  rfl
theorem keep3_of' : StableHlo.after hostOps0_1 Wb (Proc.devRef .tc main_v3) = Wb (Proc.devRef .tc main_v3) := by
  after_results_simp <;> rfl
theorem keep6_of' : StableHlo.after hostOps0_1 Wb (Proc.devRef .tc main_v6) = Wb (Proc.devRef .tc main_v6) := by
  after_results_simp <;> rfl

/-- The weight of an edge: that value gathered at its source times that value gathered at its target (a negative
    node number wrapped around first). -/
theorem weight_of (h16 : Wb (Proc.devRef .tc main_v16) = Cert.ReferenceIdeal.ReadP.val_main_v16 (F := Ideal) x1)
    (h3 : Wb (Proc.devRef .tc main_v3) = Cert.ReferenceIdeal.ReadP.val_main_v3 (F := Ideal) x1)
    (h6 : Wb (Proc.devRef .tc main_v6) = Cert.ReferenceIdeal.ReadP.val_main_v6 (F := Ideal) x1) :
    StableHlo.after hostOps0_2 Wb (Proc.devRef .tc main_v31) = Cert.ReferenceIdeal.ReadP.val_main_v31 (F := Ideal) x1 := by
  after_results_simp
  rw [h16, h3, h6]
  simp only [Cert.ReferenceIdeal.ReadP.val_main_v31, Cert.ReferenceIdeal.ReadP.val_main_v23, Cert.ReferenceIdeal.ReadP.val_main_v30, Cert.ReferenceIdeal.ReadP.val_main_v22, Cert.ReferenceIdeal.ReadP.val_main_v21, Cert.ReferenceIdeal.ReadP.val_main_v18, Cert.ReferenceIdeal.ReadP.val_main_v20, Cert.ReferenceIdeal.ReadP.val_main_v17, Cert.ReferenceIdeal.ReadP.val_main_c, Cert.ReferenceIdeal.ReadP.val_main_v19, Cert.ReferenceIdeal.ReadP.val_main_c_4, Cert.ReferenceIdeal.ReadP.val_main_v29, Cert.ReferenceIdeal.ReadP.val_main_v28, Cert.ReferenceIdeal.ReadP.val_main_v25, Cert.ReferenceIdeal.ReadP.val_main_v27, Cert.ReferenceIdeal.ReadP.val_main_v24, Cert.ReferenceIdeal.ReadP.val_main_c_5, Cert.ReferenceIdeal.ReadP.val_main_v26, Cert.ReferenceIdeal.ReadP.val_main_c_6]
  rfl

end Parts

/-- The per-edge weight: the inverse square root of the degree at the source times that at the target. -/
theorem W3_v31 : W3 m ρ c (Proc.devRef .tc main_v31) = Cert.ReferenceIdeal.ReadP.val_main_v31 (F := Ideal) (m ((c : Thread nD τ).loc main_arg1)) := by
  show StableHlo.after hostOps0_2 (StableHlo.after hostOps0_1 (StableHlo.after hostOps0 (W0 m ρ c))) (Proc.devRef .tc main_v31) = _
  rw [after_split 7 hostOps0]
  have h3 : StableHlo.after (List.take 7 hostOps0) (W0 m ρ c) (Proc.devRef .tc main_v3) = Cert.ReferenceIdeal.ReadP.val_main_v3 (F := Ideal) (m ((c : Thread nD τ).loc main_arg1)) := by
    simp only [hostOps0, List.take_succ_cons, List.take_zero]
    after_results_simp <;> rfl
  have h6 : StableHlo.after (List.take 7 hostOps0) (W0 m ρ c) (Proc.devRef .tc main_v6) = Cert.ReferenceIdeal.ReadP.val_main_v6 (F := Ideal) (m ((c : Thread nD τ).loc main_arg1)) := by
    simp only [hostOps0, List.take_succ_cons, List.take_zero]
    after_results_simp <;> rfl
  generalize StableHlo.after (List.take 7 hostOps0) (W0 m ρ c) = Wa at h3 h6 ⊢
  refine weight_of _ _ (dis_of _ _ (degPos_of _ _ h6) (degRsqrt_of _ _ h6) (zero_of _)) ?_ ?_
  · rw [keep3_of', keep3_of, h3]
  · rw [keep6_of', keep6_of, h6]

end Cert.KernelIdeal.Fold

end
-- ==== Proof.HostFold1.lean ====
/-
  The two stretches of host operations between the tiled regions, read over ANY contents. Each takes a node-feature
  array h : [100000, 32] left by the region before it, gathers its row at every edge's source, scales the row by the
  edge's weight, and scatter-adds the rows at the edges' targets into a zero array; it also views the next bias vector
  [32] as one row [1, 32]. These are the reference's aggregation stages operation for operation, so over contents that
  hold the reference's values at the buffers read (the node lists, the weights, h) the aggregated array is the
  reference's stage. The other buffers a later stage reads are not written.
-/
import proofs.«167776_j23828478558291_1_alg».proof.Proof.Gen.KernelIdeal.Frame
import proofs.«167776_j23828478558291_1_alg».proof.Proof.RefRead

set_option maxRecDepth 16384

noncomputable section

namespace Cert.KernelIdeal.Fold

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

section Parts

variable (x0 : (⟨Cert.ReferenceIdeal.S100000x32, .f32⟩ : BufTy).Contents (Elt Ideal))
  (x1 : (⟨Cert.ReferenceIdeal.S2x1600000, .i32⟩ : BufTy).Contents (Elt Ideal))
  (x2 : (⟨Cert.ReferenceIdeal.S32x32, .f32⟩ : BufTy).Contents (Elt Ideal))
  (x3 : (⟨Cert.ReferenceIdeal.S32, .f32⟩ : BufTy).Contents (Elt Ideal))
  (x4 : (⟨Cert.ReferenceIdeal.S32x32, .f32⟩ : BufTy).Contents (Elt Ideal))
  (Wb : Valuation τ sig (Elt Ideal))

/-! ## After the first region -/

/-- The first layer's aggregation: weighted rows of the first product, summed at the targets. -/
theorem agg1_of (h32 : Wb (Proc.devRef .tc main_v32) = Cert.ReferenceIdeal.ReadP.val_main_v32 (F := Ideal) x0 x2)
    (h3 : Wb (Proc.devRef .tc main_v3) = Cert.ReferenceIdeal.ReadP.val_main_v3 (F := Ideal) x1)
    (h6 : Wb (Proc.devRef .tc main_v6) = Cert.ReferenceIdeal.ReadP.val_main_v6 (F := Ideal) x1)
    (h31 : Wb (Proc.devRef .tc main_v31) = Cert.ReferenceIdeal.ReadP.val_main_v31 (F := Ideal) x1) :
    StableHlo.after hostOps1 Wb (Proc.devRef .tc main_v45) = Cert.ReferenceIdeal.ReadP.val_main_v45 (F := Ideal) x0 x1 x2 := by
  after_results_simp
  rw [h32, h3, h6, h31]
  simp only [Cert.ReferenceIdeal.ReadP.val_main_v45, Cert.ReferenceIdeal.ReadP.val_main_v43, Cert.ReferenceIdeal.ReadP.val_main_cst_9, Cert.ReferenceIdeal.ReadP.val_main_v44, Cert.ReferenceIdeal.ReadP.val_main_v42, Cert.ReferenceIdeal.ReadP.val_main_v39, Cert.ReferenceIdeal.ReadP.val_main_v38, Cert.ReferenceIdeal.ReadP.val_main_v37, Cert.ReferenceIdeal.ReadP.val_main_v34, Cert.ReferenceIdeal.ReadP.val_main_v33, Cert.ReferenceIdeal.ReadP.val_main_c_7, Cert.ReferenceIdeal.ReadP.val_main_v36, Cert.ReferenceIdeal.ReadP.val_main_v35, Cert.ReferenceIdeal.ReadP.val_main_c_8, Cert.ReferenceIdeal.ReadP.val_main_v41, Cert.ReferenceIdeal.ReadP.val_main_v40]
  rfl

/-- The first bias viewed as one row. -/
theorem row1_of : StableHlo.after hostOps1 Wb (Proc.devRef .tc main_v46)
    = shapeCast S1x32 (Wb (Proc.devRef .tc main_arg3)) shapeCasts_S32_S1x32 := by
  after_results_simp <;> rfl

theorem keep1_v3 : StableHlo.after hostOps1 Wb (Proc.devRef .tc main_v3) = Wb (Proc.devRef .tc main_v3) := by
  after_results_simp <;> rfl
theorem keep1_v6 : StableHlo.after hostOps1 Wb (Proc.devRef .tc main_v6) = Wb (Proc.devRef .tc main_v6) := by
  after_results_simp <;> rfl
theorem keep1_v31 : StableHlo.after hostOps1 Wb (Proc.devRef .tc main_v31) = Wb (Proc.devRef .tc main_v31) := by
  after_results_simp <;> rfl
theorem keep1_arg4 : StableHlo.after hostOps1 Wb (Proc.devRef .tc main_arg4) = Wb (Proc.devRef .tc main_arg4) := by
  after_results_simp <;> rfl
theorem keep1_arg5 : StableHlo.after hostOps1 Wb (Proc.devRef .tc main_arg5) = Wb (Proc.devRef .tc main_arg5) := by
  after_results_simp <;> rfl

/-! ## After the second region -/

/-- The second layer's aggregation: weighted rows of the second product, summed at the targets. -/
theorem agg2_of (h47 : Wb (Proc.devRef .tc main_v47) = Cert.ReferenceIdeal.ReadP.val_main_v50 (F := Ideal) x0 x1 x2 x3 x4)
    (h3 : Wb (Proc.devRef .tc main_v3) = Cert.ReferenceIdeal.ReadP.val_main_v3 (F := Ideal) x1)
    (h6 : Wb (Proc.devRef .tc main_v6) = Cert.ReferenceIdeal.ReadP.val_main_v6 (F := Ideal) x1)
    (h31 : Wb (Proc.devRef .tc main_v31) = Cert.ReferenceIdeal.ReadP.val_main_v31 (F := Ideal) x1) :
    StableHlo.after hostOps2 Wb (Proc.devRef .tc main_v60) = Cert.ReferenceIdeal.ReadP.val_main_v63 (F := Ideal) x0 x1 x2 x3 x4 := by
  after_results_simp
  rw [h47, h3, h6, h31]
  simp only [Cert.ReferenceIdeal.ReadP.val_main_v63, Cert.ReferenceIdeal.ReadP.val_main_v61, Cert.ReferenceIdeal.ReadP.val_main_cst_12, Cert.ReferenceIdeal.ReadP.val_main_v62, Cert.ReferenceIdeal.ReadP.val_main_v60, Cert.ReferenceIdeal.ReadP.val_main_v57, Cert.ReferenceIdeal.ReadP.val_main_v56, Cert.ReferenceIdeal.ReadP.val_main_v55, Cert.ReferenceIdeal.ReadP.val_main_v52, Cert.ReferenceIdeal.ReadP.val_main_v51, Cert.ReferenceIdeal.ReadP.val_main_c_10, Cert.ReferenceIdeal.ReadP.val_main_v54, Cert.ReferenceIdeal.ReadP.val_main_v53, Cert.ReferenceIdeal.ReadP.val_main_c_11, Cert.ReferenceIdeal.ReadP.val_main_v59, Cert.ReferenceIdeal.ReadP.val_main_v58]
  rfl

/-- The second bias viewed as one row. -/
theorem row2_of : StableHlo.after hostOps2 Wb (Proc.devRef .tc main_v61)
    = shapeCast S1x32 (Wb (Proc.devRef .tc main_arg5)) shapeCasts_S32_S1x32 := by
  after_results_simp <;> rfl

end Parts

end Cert.KernelIdeal.Fold

end
-- ==== Proof.Region0Value.lean ====
/-
  Region 0: a row-blocked matrix product, block by block, is the product of the whole arrays.

  The region runs over 20 grid points. At point t it reads rows 5000·t … 5000·t + 4999 of the [100000, 32] array x
  and all of the [32, 32] array w, and writes the product of that row block with w (operands narrowed to bf16, into a
  zero accumulator) back to the same rows of the [100000, 32] output. At the ideal values the narrowing is the identity
  and the product at (p, q) is ∑ k, x[p, k] · w[k, q]; row 5000·t + p of the whole product x · w is the same sum, and
  the 20 blocks tile the 100000 rows, so the output array ends holding x · w.
-/
import proofs.«167776_j23828478558291_1_alg».proof.ReferenceIdeal
import proofs.«167776_j23828478558291_1_alg».proof.Proof.Gen.ReferenceIdeal
import proofs.«167776_j23828478558291_1_alg».proof.Proof.Gen.KernelIdeal.Frame
import proofs.«167776_j23828478558291_1_alg».proof.Proof.LibMlpAt
import Idealize.ShloMosaic.Lib.Pipeline.Value
import Idealize.ShloMosaic.Lib.ValueIdx
import Idealize.ShloMosaic.Lib.ValueLayout
import Idealize.ShloMosaic.PureOps.Ideal.Laws
noncomputable section
open Idealize.ShloMosaic Idealize.ShloMosaic.TcCoe Idealize.SL.Sem Idealize.ShloMosaic.ValueIdx

open scoped BigOperators

namespace Cert.KernelIdeal.RegionValue
open Cert.KernelIdeal Cert.KernelIdeal.Gen

variable (V : (c : Dev nD) → (b : Ref sig .tc) → Buf (Elt Ideal) ((c : Thread nD τ).loc b))

/-- The zero offsets of a rank-2 rectangle, as a vector literal and as a constant function. -/
theorem zeroOff0 : (![0, 0] : Fin 2 → Nat) = fun _ => 0 := funext fun a => by fin_cases a <;> rfl

/-! ## The product at an entry, in its two spellings -/

/-- The whole-array product x · w at (r, q). -/
theorem prod0_at (x : FVec Ideal Cert.ReferenceIdeal.S100000x32 .f32) (w : FVec Ideal Cert.ReferenceIdeal.S32x32 .f32)
    (r : Fin 100000) (q : Fin 32) :
    Host.dotGeneral (F := Ideal) Cert.ReferenceIdeal.dot_S100000x32_S32x32_S100000x32_1_0_0_1_n_n none x w (ix2 r q)
      = ∑ k : Fin 32, x (ix2 r k) * w (ix2 k q) :=
  Cert.Mlp.dotGeneral_at Cert.ReferenceIdeal.Gen.dot_S100000x32_S32x32_S100000x32_1_0_0_1_n_n_wf none x w r q

/-- A tile's product at (p, q): narrowing to bf16 changes nothing, and the product into a zero accumulator is the sum
    over the contracted coordinate. -/
theorem tile0_at (x : Vec Ideal S5000x32 .f32) (w : Vec Ideal S32x32 .f32) (p : Fin 5000) (q : Fin 32) :
    k0_pay1 x w (ix2 p q) = ∑ k : Fin 32, x (ix2 p k) * w (ix2 k q) := by
  unfold k0_pay1
  refine (Cert.Mlp.matmul_zero_at dot_S5000x32_S32x32_S5000x32_1_0_0_1_n_n_wf none _ _ p q).trans ?_
  refine Finset.sum_congr rfl fun k _ => ?_
  rw [truncf_apply, truncf_apply]

/-! ## The index maps over the grid, and each window's block as rows of its array -/

/-- At point t the row-blocked windows (the first operand's and the output's) are at block (t, 0); the second
    operand's window stays at block (0, 0). Decided over the 20 points. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the first operand's block at point t is row 5000·t + p of its array. -/
theorem rows0_read (c : Dev nD) (t : Fin cfg0.N) (p : Fin 5000) (k : Fin 32) (r : Fin 100000)
    (hr : r.val = 5000 * t.val + p.val) :
    (iblk0 V c 0 t : Vec Ideal S5000x32 .f32) (ix2 p k) = (V c main_arg0 : Vec Ideal S100000x32 .f32) (ix2 r k) := by
  obtain ⟨e0, e1, -, -, -, -⟩ := blockIdx0 t
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 5000 + 1 * p.val = r.val; omega
  | ⟨1, _⟩ => show win0_0.index t (1 : Fin 2) * 32 + 1 * k.val = k.val; omega

/-- The second operand's block at any point is its whole array. -/
theorem whole0_read (c : Dev nD) (t : Fin cfg0.N) (k : Fin 32) (q : Fin 32) :
    (iblk0 V c 1 t : Vec Ideal S32x32 .f32) (ix2 k q) = (V c main_arg2 : Vec Ideal S32x32 .f32) (ix2 k q) := by
  obtain ⟨-, -, e2, e3, -, -⟩ := blockIdx0 t
  show V c main_arg2 (((cfg0.win 1).blk t).view.emb (ix2 k q)) = V c main_arg2 (ix2 k q)
  refine congrArg (V c main_arg2) ?_
  funext a; apply Fin.ext
  match a with
  | ⟨0, _⟩ => show win0_1.index t (0 : Fin 2) * 32 + 1 * k.val = k.val; omega
  | ⟨1, _⟩ => show win0_1.index t (1 : Fin 2) * 32 + 1 * q.val = q.val; omega

/-! ## What each point writes back -/

/-- Point t writes back rows 5000·t … 5000·t + 4999 of the whole product. -/
theorem flushed0_eq (c : Dev nD) (t : Fin cfg0.N) :
    (dat0 V c).flushed 2 t = ((cfg0.win 2).blk t).view.read (Elt Ideal)
      (Host.dotGeneral (F := Ideal) (φ₁ := .f32) (φ₂ := .f32) Cert.ReferenceIdeal.dot_S100000x32_S32x32_S100000x32_1_0_0_1_n_n none (V c main_arg0) (V c main_arg2)) := by
  show (cfg0.win 2).cut (grid0.coords t) ((dat0 V c).after 2 t) = _
  rw [after0_2]
  unfold out0_2
  rw [View.canon_unit_zero zeroOff0]
  simp only [View.ld_unit_zero (S := S5000x32) zeroOff0, View.ld_unit_zero (S := S32x32) zeroOff0]
  obtain ⟨-, -, -, -, e4, e5⟩ := blockIdx0 t
  funext j
  obtain ⟨p, q, rfl⟩ : ∃ (p : Fin 5000) (q : Fin 32), j = ix2 p q := ⟨j 0, j 1, eq_ix2 j⟩
  have hN : cfg0.N = 20 := N_0
  have hr : 5000 * t.val + p.val < 100000 := by have := t.isLt; have := p.isLt; omega
  have hemb : ((cfg0.win 2).blk t).view.emb (ix2 p q) = ix2 (⟨5000 * t.val + p.val, hr⟩ : Fin 100000) q := by
    funext a; apply Fin.ext
    match a with
    | ⟨0, _⟩ => show win0_2.index t (0 : Fin 2) * 5000 + 1 * p.val = 5000 * t.val + p.val; omega
    | ⟨1, _⟩ => show win0_2.index t (1 : Fin 2) * 32 + 1 * q.val = q.val; omega
  show k0_pay1 (iblk0 V c 0 t) (iblk0 V c 1 t) (ix2 p q)
    = (Host.dotGeneral (F := Ideal) (φ₁ := .f32) (φ₂ := .f32) Cert.ReferenceIdeal.dot_S100000x32_S32x32_S100000x32_1_0_0_1_n_n none (V c main_arg0) (V c main_arg2)) (((cfg0.win 2).blk t).view.emb (ix2 p q))
  rw [hemb]
  refine (tile0_at _ _ p q).trans ?_
  refine Eq.trans ?_ (prod0_at _ _ _ q).symm
  refine Finset.sum_congr rfl fun k _ => ?_
  rw [rows0_read V c t p k ⟨_, hr⟩ rfl, whole0_read V c t k q]

/-! ## The blocks tile the rows -/

/-- An index of the output array is in point t's block iff each coordinate is in the block's range on its axis. -/
theorem mem_rows0 (t : Fin cfg0.N) (i : S100000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v32).slice (win0_2.rect t)).set ↔ _
  rw [View.set_slice_whole, Rect.mem_set_unit]
  exact Iff.rfl

/-- Row r lies in the block of point r / 5000, which is written back. -/
theorem rows0_cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  have ht : (i 0).val / 5000 < cfg0.N := by omega
  obtain ⟨-, -, -, -, e4, e5⟩ := blockIdx0 ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_rows0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 32 ≤ (i 1).val
      ∧ (i 1).val < win0_2.index ⟨(i 0).val / 5000, ht⟩ (1 : Fin 2) * 32 + 32
    omega

/-! ## The array after the region -/

/-- The output array after the region is the product of the two arrays the region reads, as it finds them. -/
theorem final0 (c : Dev nD) :
    (dat0 (F := Ideal) V c).arrAt 2 cfg0.N
      = Host.dotGeneral (F := Ideal) (φ₁ := .f32) (φ₂ := .f32) Cert.ReferenceIdeal.dot_S100000x32_S32x32_S100000x32_1_0_0_1_n_n none (V c main_arg0) (V c main_arg2) :=
  (dat0 V c).arrAt_eq_of_cover 2 _ (fun t _ => flushed0_eq V c t) rows0_cover

end Cert.KernelIdeal.RegionValue
end
-- ==== Proof.Region1Value.lean ====
/-
  Region 1: a bias, a rectifier and a row-blocked matrix product, block by block, are the same operations on the whole
  arrays.

  The region runs over 20 grid points. At point t it reads rows 5000·t … 5000·t + 4999 of the [100000, 32] array a, all
  of the one-row bias b : [1, 32] and all of the [32, 32] array w, and writes max (a + b, 0) · w for that row block (b
  broadcast along the rows, the product's operands narrowed to bf16, into a zero accumulator) back to the same rows of
  the [100000, 32] output. At the ideal values the narrowing is the identity, so the entry at (p, q) is
  ∑ j, max (a[p, j] + b[0, j]) 0 · w[j, q]; row 5000·t + p of the whole array max (a + b, 0) · w is the same sum, and
  the 20 blocks tile the 100000 rows, so the output array ends holding max (a + b, 0) · w.
-/
import proofs.«167776_j23828478558291_1_alg».proof.ReferenceIdeal
import proofs.«167776_j23828478558291_1_alg».proof.Proof.Gen.ReferenceIdeal
import proofs.«167776_j23828478558291_1_alg».proof.Proof.Gen.KernelIdeal.Frame
import proofs.«167776_j23828478558291_1_alg».proof.Proof.LibMlpAt
import Idealize.ShloMosaic.Lib.Pipeline.Value
import Idealize.ShloMosaic.Lib.ValueIdx
import Idealize.ShloMosaic.Lib.ValueLayout
import Idealize.ShloMosaic.PureOps.Ideal.Laws
noncomputable section
open Idealize.ShloMosaic Idealize.ShloMosaic.TcCoe Idealize.SL.Sem Idealize.ShloMosaic.ValueIdx

open scoped BigOperators

namespace Cert.KernelIdeal.RegionValue
open Cert.KernelIdeal Cert.KernelIdeal.Gen

variable (V : (c : Dev nD) → (b : Ref sig .tc) → Buf (Elt Ideal) ((c : Thread nD τ).loc b))

/-- The zero offsets of a rank-2 rectangle, as a vector literal and as a constant function. -/
theorem zeroOff1 : (![0, 0] : Fin 2 → Nat) = fun _ => 0 := funext fun a => by fin_cases a <;> rfl

/-! ## The rectified affine product at an entry, in its two spellings -/

/-- The whole-array spelling at (r, q): the bias broadcast along the rows, the rectifier a maximum with a broadcast
    zero, then the product with w. -/
theorem layer1_at (a : FVec Ideal Cert.ReferenceIdeal.S100000x32 .f32) (b : FVec Ideal Cert.ReferenceIdeal.S1x32 .f32)
    (w : FVec Ideal Cert.ReferenceIdeal.S32x32 .f32) (r : Fin 100000) (q : Fin 32) :
    (Host.dotGeneral (F := Ideal) (φ₁ := .f32) (φ₂ := .f32) Cert.ReferenceIdeal.dot_S100000x32_S32x32_S100000x32_1_0_0_1_n_n none
          (maximumf (addf a
              (broadcastInDim Cert.ReferenceIdeal.S100000x32 ![0, 1] Cert.ReferenceIdeal.Gen.bcast_S1x32_S100000x32_0_1 b))
            (broadcastInDim Cert.ReferenceIdeal.S100000x32 ![] Cert.ReferenceIdeal.Gen.bcast_S_S100000x32 (constant (F := Ideal) Cert.ReferenceIdeal.S_ .f32 0x00000000#32)))
          w) (ix2 r q)
      = ∑ j : Fin 32, max (a (ix2 r j) + b (ix2 (0 : Fin 1) j)) (Ideal.ofBits .f32 0x00000000#32) * w (ix2 j q) := by
  refine (Cert.Mlp.dotGeneral_at Cert.ReferenceIdeal.Gen.dot_S100000x32_S32x32_S100000x32_1_0_0_1_n_n_wf none _ w r q).trans ?_
  refine Finset.sum_congr rfl fun j _ => ?_
  rw [maximumf_apply, addf_apply, Cert.Mlp.bcastRow_at, Cert.Mlp.bcastScalar_at, constant_apply]

/-- A tile's spelling at (p, q): the bias broadcast as a vector, the rectifier a maximum with a splat zero, the
    operands narrowed to bf16 (which changes nothing), the product into a zero accumulator. -/
theorem tile1_at (x : Vec Ideal S5000x32 .f32) (b : Vec Ideal S1x32 .f32) (w : Vec Ideal S32x32 .f32) (p : Fin 5000) (q : Fin 32) :
    k1_pay1 x b w (ix2 p q)
      = ∑ j : Fin 32, max (x (ix2 p j) + b (ix2 (0 : Fin 1) j)) (Ideal.ofBits .f32 0x00000000#32) * w (ix2 j q) := by
  unfold k1_pay1
  refine (Cert.Mlp.matmul_zero_at dot_S5000x32_S32x32_S5000x32_1_0_0_1_n_n_wf none _ _ p q).trans ?_
  refine Finset.sum_congr rfl fun j _ => ?_
  rw [truncf_apply, truncf_apply, maximumf_apply, addf_apply, shapeCast_self, shapeCast_self, broadcastTo_1b_ab_apply,
    broadcast_apply]
  rfl

/-! ## The index maps over the grid, and each window's block as rows of its array -/

/-- At point t the row-blocked windows (the first operand's and the output's) are at block (t, 0); the bias's and
    the second operand's windows stay at block (0, 0). Decided over the 20 points. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the first operand's block at point t is row 5000·t + p of its array. -/
theorem rows1_read (c : Dev nD) (t : Fin cfg1.N) (p : Fin 5000) (k : Fin 32) (r : Fin 100000)
    (hr : r.val = 5000 * t.val + p.val) :
    (iblk1 V c 0 t : Vec Ideal S5000x32 .f32) (ix2 p k) = (V c main_v45 : Vec Ideal S100000x32 .f32) (ix2 r k) := by
  obtain ⟨e0, e1, -, -, -, -, -, -⟩ := blockIdx1 t
  show V c main_v45 (((cfg1.win 0).blk t).view.emb (ix2 p k)) = V c main_v45 (ix2 r k)
  refine congrArg (V c main_v45) ?_
  funext a; apply Fin.ext
  match a with
  | ⟨0, _⟩ => show win1_0.index t (0 : Fin 2) * 5000 + 1 * p.val = r.val; omega
  | ⟨1, _⟩ => show win1_0.index t (1 : Fin 2) * 32 + 1 * k.val = k.val; omega

/-- The bias's block at any point is its whole one-row array. -/
theorem bias1_read (c : Dev nD) (t : Fin cfg1.N) (u : Fin 1) (j : Fin 32) :
    (iblk1 V c 1 t : Vec Ideal S1x32 .f32) (ix2 u j) = (V c main_v46 : Vec Ideal S1x32 .f32) (ix2 u j) := by
  obtain ⟨-, -, e2, e3, -, -, -, -⟩ := blockIdx1 t
  show V c main_v46 (((cfg1.win 1).blk t).view.emb (ix2 u j)) = V c main_v46 (ix2 u j)
  refine congrArg (V c main_v46) ?_
  funext a; apply Fin.ext
  match a with
  | ⟨0, _⟩ => show win1_1.index t (0 : Fin 2) * 1 + 1 * u.val = u.val; omega
  | ⟨1, _⟩ => show win1_1.index t (1 : Fin 2) * 32 + 1 * j.val = j.val; omega

/-- The second operand's block at any point is its whole array. -/
theorem whole1_read (c : Dev nD) (t : Fin cfg1.N) (k : Fin 32) (q : Fin 32) :
    (iblk1 V c 2 t : Vec Ideal S32x32 .f32) (ix2 k q) = (V c main_arg4 : Vec Ideal S32x32 .f32) (ix2 k q) := by
  obtain ⟨-, -, -, -, e4, e5, -, -⟩ := blockIdx1 t
  show V c main_arg4 (((cfg1.win 2).blk t).view.emb (ix2 k q)) = V c main_arg4 (ix2 k q)
  refine congrArg (V c main_arg4) ?_
  funext a; apply Fin.ext
  match a with
  | ⟨0, _⟩ => show win1_2.index t (0 : Fin 2) * 32 + 1 * k.val = k.val; omega
  | ⟨1, _⟩ => show win1_2.index t (1 : Fin 2) * 32 + 1 * q.val = q.val; omega

/-! ## What each point writes back -/

/-- Point t writes back rows 5000·t … 5000·t + 4999 of the whole rectified affine product. -/
theorem flushed1_eq (c : Dev nD) (t : Fin cfg1.N) :
    (dat1 V c).flushed 3 t = ((cfg1.win 3).blk t).view.read (Elt Ideal)
      (Host.dotGeneral (F := Ideal) (φ₁ := .f32) (φ₂ := .f32) Cert.ReferenceIdeal.dot_S100000x32_S32x32_S100000x32_1_0_0_1_n_n none
          (maximumf (addf (V c main_v45)
              (broadcastInDim Cert.ReferenceIdeal.S100000x32 ![0, 1] Cert.ReferenceIdeal.Gen.bcast_S1x32_S100000x32_0_1 (V c main_v46)))
            (broadcastInDim Cert.ReferenceIdeal.S100000x32 ![] Cert.ReferenceIdeal.Gen.bcast_S_S100000x32 (constant (F := Ideal) Cert.ReferenceIdeal.S_ .f32 0x00000000#32)))
          (V c main_arg4)) := by
  show (cfg1.win 3).cut (grid1.coords t) ((dat1 V c).after 3 t) = _
  rw [after1_3]
  unfold out1_3
  rw [View.canon_unit_zero zeroOff1]
  simp only [View.ld_unit_zero (S := S5000x32) zeroOff1, View.ld_unit_zero (S := S1x32) zeroOff1,
    View.ld_unit_zero (S := S32x32) zeroOff1]
  obtain ⟨-, -, -, -, -, -, e6, e7⟩ := blockIdx1 t
  funext j
  obtain ⟨p, q, rfl⟩ : ∃ (p : Fin 5000) (q : Fin 32), j = ix2 p q := ⟨j 0, j 1, eq_ix2 j⟩
  have hN : cfg1.N = 20 := N_1
  have hr : 5000 * t.val + p.val < 100000 := by have := t.isLt; have := p.isLt; omega
  have hemb : ((cfg1.win 3).blk t).view.emb (ix2 p q) = ix2 (⟨5000 * t.val + p.val, hr⟩ : Fin 100000) q := by
    funext a; apply Fin.ext
    match a with
    | ⟨0, _⟩ => show win1_3.index t (0 : Fin 2) * 5000 + 1 * p.val = 5000 * t.val + p.val; omega
    | ⟨1, _⟩ => show win1_3.index t (1 : Fin 2) * 32 + 1 * q.val = q.val; omega
  show k1_pay1 (iblk1 V c 0 t) (iblk1 V c 1 t) (iblk1 V c 2 t) (ix2 p q)
    = (Host.dotGeneral (F := Ideal) (φ₁ := .f32) (φ₂ := .f32) Cert.ReferenceIdeal.dot_S100000x32_S32x32_S100000x32_1_0_0_1_n_n none
          (maximumf (addf (V c main_v45)
              (broadcastInDim Cert.ReferenceIdeal.S100000x32 ![0, 1] Cert.ReferenceIdeal.Gen.bcast_S1x32_S100000x32_0_1 (V c main_v46)))
            (broadcastInDim Cert.ReferenceIdeal.S100000x32 ![] Cert.ReferenceIdeal.Gen.bcast_S_S100000x32 (constant (F := Ideal) Cert.ReferenceIdeal.S_ .f32 0x00000000#32)))
          (V c main_arg4)) (((cfg1.win 3).blk t).view.emb (ix2 p q))
  rw [hemb]
  refine (tile1_at _ _ _ p q).trans ?_
  refine Eq.trans ?_ (layer1_at _ _ _ _ q).symm
  refine Finset.sum_congr rfl fun k _ => ?_
  rw [rows1_read V c t p k ⟨_, hr⟩ rfl, bias1_read V c t 0 k, whole1_read V c t k q]

/-! ## The blocks tile the rows -/

/-- An index of the output array is in point t's block iff each coordinate is in the block's range on its axis. -/
theorem mem_rows1 (t : Fin cfg1.N) (i : S100000x32.Idx) :
    i ∈ ((cfg1.win 3).blk t).view.set ↔ ∀ a : Fin 2, win1_3.index t a * S5000x32.size a ≤ (i a).val
      ∧ (i a).val < win1_3.index t a * S5000x32.size a + S5000x32.size a := by
  show i ∈ ((View.whole main_v47).slice (win1_3.rect t)).set ↔ _
  rw [View.set_slice_whole, Rect.mem_set_unit]
  exact Iff.rfl

/-- Row r lies in the block of point r / 5000, which is written back. -/
theorem rows1_cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 20 := N_1
  have ht : (i 0).val / 5000 < cfg1.N := by omega
  obtain ⟨-, -, -, -, -, -, e6, e7⟩ := blockIdx1 ⟨(i 0).val / 5000, ht⟩
  have e6' : win1_3.index ⟨(i 0).val / 5000, ht⟩ (0 : Fin 2) = (i 0).val / 5000 := e6
  refine ⟨⟨(i 0).val / 5000, ht⟩, flush1_3 _, ?_⟩
  rw [mem_rows1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    omega
  | ⟨1, _⟩ =>
    show win1_3.index ⟨(i 0).val / 5000, ht⟩ (1 : Fin 2) * 32 ≤ (i 1).val
      ∧ (i 1).val < win1_3.index ⟨(i 0).val / 5000, ht⟩ (1 : Fin 2) * 32 + 32
    omega

/-! ## The array after the region -/

/-- The output array after the region is max (a + b, 0) · w of the three arrays the region reads, as it finds them. -/
theorem final1 (c : Dev nD) :
    (dat1 (F := Ideal) V c).arrAt 3 cfg1.N
      = Host.dotGeneral (F := Ideal) (φ₁ := .f32) (φ₂ := .f32) Cert.ReferenceIdeal.dot_S100000x32_S32x32_S100000x32_1_0_0_1_n_n none
          (maximumf (addf (V c main_v45)
              (broadcastInDim Cert.ReferenceIdeal.S100000x32 ![0, 1] Cert.ReferenceIdeal.Gen.bcast_S1x32_S100000x32_0_1 (V c main_v46)))
            (broadcastInDim Cert.ReferenceIdeal.S100000x32 ![] Cert.ReferenceIdeal.Gen.bcast_S_S100000x32 (constant (F := Ideal) Cert.ReferenceIdeal.S_ .f32 0x00000000#32)))
          (V c main_arg4) :=
  (dat1 V c).arrAt_eq_of_cover 3 _ (fun t _ => flushed1_eq V c t) rows1_cover

end Cert.KernelIdeal.RegionValue
end
-- ==== Proof.Region2Value.lean ====
/-
  The third tiled region, read as one function of whole arrays.

  The region walks twenty row blocks of 5000 rows over an array a : [100000, 32] with a one-row bias b : [1, 32] held
  whole, and writes back at every point the block  max (a_block + b, 0)  of an output array [100000, 32]. Block t of
  the input and block t of the output sit at the same rows 5000 t … 5000 t + 4999, the bias is read at row 0 whatever
  the point, and the twenty blocks tile the 100000 rows (row r lies in block r / 5000). Hence the output array after
  the region is, entry by entry, max (a (r, q) + b (0, q), 0): the rectified row-bias map of the arrays the region
  found, whatever those arrays are.
-/
import proofs.«167776_j23828478558291_1_alg».proof.ReferenceIdeal
import proofs.«167776_j23828478558291_1_alg».proof.Proof.Gen.ReferenceIdeal
import proofs.«167776_j23828478558291_1_alg».proof.Proof.Gen.KernelIdeal.Frame
import proofs.«167776_j23828478558291_1_alg».proof.Proof.LibMlpAt
import Idealize.ShloMosaic.Lib.Pipeline.Value
import Idealize.ShloMosaic.Lib.ValueIdx
import Idealize.ShloMosaic.Lib.ValueLayout
import Idealize.ShloMosaic.PureOps.Ideal.Laws
noncomputable section
open Idealize.ShloMosaic Idealize.ShloMosaic.TcCoe Idealize.SL.Sem Idealize.ShloMosaic.ValueIdx

namespace Cert.KernelIdeal.RegionValue
open Cert.KernelIdeal Cert.KernelIdeal.Gen
open Idealize.ShloMosaic.Pipeline (Dat)

namespace R2

/-- The rectified row-bias map on whole arrays. -/
abbrev reluBias (a : FVec Ideal S100000x32 .f32) (b : FVec Ideal S1x32 .f32) : FVec Ideal S100000x32 .f32 :=
  maximumf (addf a
      (broadcastInDim Cert.ReferenceIdeal.S100000x32 ![0, 1] Cert.ReferenceIdeal.Gen.bcast_S1x32_S100000x32_0_1 b))
    (broadcastInDim Cert.ReferenceIdeal.S100000x32 ![] Cert.ReferenceIdeal.Gen.bcast_S_S100000x32 (constant (F := Ideal) Cert.ReferenceIdeal.S_ .f32 0x00000000#32))

/-- At (r, q) it reads max (a (r, q) + b (0, q)) 0. -/
theorem reluBias_at (a : FVec Ideal S100000x32 .f32) (b : FVec Ideal S1x32 .f32) (r : Fin 100000) (q : Fin 32) :
    reluBias a b (ix2 r q) = max (a (ix2 r q) + b (ix2 (0 : Fin 1) q)) (Ideal.ofBits .f32 0x00000000#32) := by
  unfold reluBias
  rw [maximumf_apply, addf_apply, Cert.Mlp.bcastRow_at, Cert.Mlp.bcastScalar_at, constant_apply]

/-- One tile's value at (p, q): max (x0 (p, q) + x1 (0, q)) 0 — the casts to the same shape are identities, the row
    broadcast reads row 0, the splat reads the scalar. -/
theorem tile_at (x0 : Vec Ideal S5000x32 .f32) (x1 : Vec Ideal S1x32 .f32) (p : Fin 5000) (q : Fin 32) :
    k2_pay1 x0 x1 (ix2 p q) = max (x0 (ix2 p q) + x1 (ix2 (0 : Fin 1) q)) (Ideal.ofBits .f32 0x00000000#32) := by
  unfold k2_pay1
  rw [maximumf_apply, addf_apply, shapeCast_self, shapeCast_self, broadcastTo_1b_ab_apply, broadcast_apply]
  rfl

/-- The same at any index whose column is q. -/
theorem reluBias_at' (a : FVec Ideal S100000x32 .f32) (b : FVec Ideal S1x32 .f32) (i : S100000x32.Idx) (q : Fin 32)
    (hq : (i 1).val = q.val) :
    reluBias a b i = max (a i + b (ix2 (0 : Fin 1) q)) (Ideal.ofBits .f32 0x00000000#32) := by
  obtain ⟨r, q', rfl⟩ : ∃ (r : Fin 100000) (q' : Fin 32), i = ix2 r q' := ⟨i 0, i 1, eq_ix2 i⟩
  obtain rfl : q' = q := Fin.ext hq
  exact reluBias_at a b r q'

/-- The zero offsets, as a constant function. -/
theorem zeroOff : (![0, 0] : Fin 2 → Nat) = fun _ => 0 := funext fun a => by fin_cases a <;> rfl

/-- The block index maps, decided over the twenty grid points: the input and the output are at block (t, 0), the bias
    at block (0, 0). -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the rectified row-bias map of the arrays the region found: an element (p, q)
    of the block sits at row 5000 t + p of both the input and the output, and the bias is read at (0, q). -/
theorem flushed_eq (c : Dev nD) (t : Fin cfg2.N) :
    (dat2 (F := Ideal) V c).flushed 2 t
      = ((cfg2.win 2).blk t).view.read (Elt Ideal) (reluBias (V c main_v60) (V c main_v61)) := by
  show (cfg2.win 2).cut (grid2.coords t) ((dat2 V c).after 2 t) = _
  rw [after2_2]
  unfold out2_2
  rw [View.canon_unit_zero zeroOff]
  simp only [View.ld_unit_zero (S := S5000x32) zeroOff, View.ld_unit_zero (S := S1x32) zeroOff]
  funext j
  revert j
  show ∀ j : S5000x32.Idx, k2_pay1 (iblk2 V c 0 t) (iblk2 V c 1 t) j
      = reluBias (V c main_v60) (V c main_v61) (((cfg2.win 2).blk t).view.emb j)
  intro j
  obtain ⟨p, q, rfl⟩ : ∃ (p : Fin 5000) (q : Fin 32), j = ix2 p q := ⟨j 0, j 1, eq_ix2 j⟩
  obtain ⟨i00, i01, i10, i11, i20, i21⟩ := blockIndex t
  have hq : (((cfg2.win 2).blk t).view.emb (ix2 p q) 1).val = q.val := by
    show win2_2.index t (1 : Fin 2) * 32 + 1 * q.val = q.val
    omega
  refine (tile_at _ _ p q).trans ((reluBias_at' _ _ _ q hq).trans ?_).symm
  have h0 : ((cfg2.win 0).blk t).view.emb (ix2 p q) = ((cfg2.win 2).blk t).view.emb (ix2 p q) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 32 + 1 * q.val = win2_2.index t (1 : Fin 2) * 32 + 1 * q.val; omega
  have h1 : ((cfg2.win 1).blk t).view.emb (ix2 (0 : Fin 1) q) = ix2 (0 : Fin 1) q := by
    funext a; apply Fin.ext
    match a with
    | ⟨0, _⟩ => show win2_1.index t (0 : Fin 2) * 1 + 1 * (0 : Fin 1).val = (0 : Fin 1).val; omega
    | ⟨1, _⟩ => show win2_1.index t (1 : Fin 2) * 32 + 1 * q.val = q.val; omega
  have r0 : iblk2 V c 0 t (ix2 p q) = V c main_v60 (((cfg2.win 2).blk t).view.emb (ix2 p q)) :=
    congrArg (V c main_v60) h0
  have r1 : iblk2 V c 1 t (ix2 (0 : Fin 1) q) = V c main_v61 (ix2 (0 : Fin 1) q) :=
    congrArg (V c main_v61) h1
  rw [r0, r1]

/-- Membership of an index in the block of point `t`, axis by axis. -/
theorem mem_block (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v62).slice (win2_2.rect t)).set ↔ _
  rw [View.set_slice_whole, Rect.mem_set_unit]
  exact Iff.rfl

/-- Every index of the array lies in the block of the point its row selects. -/
theorem covered (i : S100000x32.Idx) :
    ∃ t : Fin cfg2.N, (cfg2.win 2).flush t = true ∧ i ∈ ((cfg2.win 2).blk t).view.set := by
  have hN : cfg2.N = 20 := N_2
  have hi0 : (i 0).val < 100000 := (i 0).isLt
  have hi1 : (i 1).val < 32 := (i 1).isLt
  let t : Fin cfg2.N := ⟨(i 0).val / 5000, by rw [hN]; omega⟩
  obtain ⟨-, -, -, -, i20, i21⟩ := blockIndex t
  have ht : t.val = (i 0).val / 5000 := rfl
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

end R2

/-- The output array after the region: the rectified row-bias map of the arrays the region found. -/
theorem final2 (V : (c : Dev nD) → (b : Ref sig .tc) → Buf (Elt Ideal) ((c : Thread nD τ).loc b)) (c : Dev nD) :
    (dat2 (F := Ideal) V c).arrAt 2 cfg2.N
      = maximumf (addf (V c main_v60)
            (broadcastInDim Cert.ReferenceIdeal.S100000x32 ![0, 1] Cert.ReferenceIdeal.Gen.bcast_S1x32_S100000x32_0_1 (V c main_v61)))
          (broadcastInDim Cert.ReferenceIdeal.S100000x32 ![] Cert.ReferenceIdeal.Gen.bcast_S_S100000x32 (constant (F := Ideal) Cert.ReferenceIdeal.S_ .f32 0x00000000#32)) :=
  (dat2 (F := Ideal) V c).arrAt_eq_of_cover 2 (R2.reluBias (V c main_v60) (V c main_v61)) (fun t _ => R2.flushed_eq V c t) R2.covered

end Cert.KernelIdeal.RegionValue

end
-- ==== Proof.KernelValue.lean ====
/-
  The idealized kernel's result buffer at the end of the run, as the reference's last stage of the six arguments.
  The contents of the buffers at the boundaries of @main form a fold: a stretch of host operations applies its
  operations, a region leaves its output array at one whole-array function of the arrays it found. Walking the fold
  from the launch: the first stretch computes the node lists and the per-edge weights (the reference's first stages);
  the first region the product x · W1; the second stretch the weighted aggregation of that product over the edges;
  the second region the product max (agg1 + b1, 0) · W2; the third stretch the aggregation of that; the third region
  max (agg2 + b2, 0). Each step is the reference's stage of the same name over the same values, the one difference
  in spelling being a bias viewed as a row by a reshape here and by a broadcast along a new unit axis there.
-/
import proofs.«167776_j23828478558291_1_alg».proof.Proof.Gen.KernelIdeal.Frame
import proofs.«167776_j23828478558291_1_alg».proof.Proof.RefRead
import proofs.«167776_j23828478558291_1_alg».proof.Proof.LibMlpAt
import proofs.«167776_j23828478558291_1_alg».proof.Proof.HostFold0
import proofs.«167776_j23828478558291_1_alg».proof.Proof.HostFold1
import proofs.«167776_j23828478558291_1_alg».proof.Proof.Region0Value
import proofs.«167776_j23828478558291_1_alg».proof.Proof.Region1Value
import proofs.«167776_j23828478558291_1_alg».proof.Proof.Region2Value

set_option maxRecDepth 16384

noncomputable section

namespace Cert.KernelIdeal.Fold

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## Through the first region -/

theorem W4_v3 : W4 m ρ c (Proc.devRef .tc main_v3) = Cert.ReferenceIdeal.ReadP.val_main_v3 (F := Ideal) (m ((c : Thread nD τ).loc main_arg1)) :=
  (W4_of_ne m ρ c main_v3 (by decide)).trans (W3_v3 m ρ c)
theorem W4_v6 : W4 m ρ c (Proc.devRef .tc main_v6) = Cert.ReferenceIdeal.ReadP.val_main_v6 (F := Ideal) (m ((c : Thread nD τ).loc main_arg1)) :=
  (W4_of_ne m ρ c main_v6 (by decide)).trans (W3_v6 m ρ c)
theorem W4_v31 : W4 m ρ c (Proc.devRef .tc main_v31) = Cert.ReferenceIdeal.ReadP.val_main_v31 (F := Ideal) (m ((c : Thread nD τ).loc main_arg1)) :=
  (W4_of_ne m ρ c main_v31 (by decide)).trans (W3_v31 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)

/-- The first region leaves the product of the node features with the first weight matrix. -/
theorem W4_v32 : W4 m ρ c (Proc.devRef .tc main_v32) = Cert.ReferenceIdeal.ReadP.val_main_v32 (F := Ideal) (m ((c : Thread nD τ).loc main_arg0)) (m ((c : Thread nD τ).loc main_arg2)) := by
  refine (W4_arr m ρ c 2).trans ?_
  rw [RegionValue.final0 (V3 m ρ) c]
  have e0 : V3 m ρ c main_arg0 = (m ((c : Thread nD τ).loc main_arg0)) := W3_arg0 m ρ c
  have e2 : V3 m ρ c main_arg2 = (m ((c : Thread nD τ).loc main_arg2)) := W3_arg2 m ρ c
  rw [e0, e2]
  rfl

/-! ## The first aggregation -/

theorem W5_v45 : W5 m ρ c (Proc.devRef .tc main_v45) = Cert.ReferenceIdeal.ReadP.val_main_v45 (F := Ideal) (m ((c : Thread nD τ).loc main_arg0)) (m ((c : Thread nD τ).loc main_arg1)) (m ((c : Thread nD τ).loc main_arg2)) :=
  agg1_of _ _ _ (W4 m ρ c) (W4_v32 m ρ c) (W4_v3 m ρ c) (W4_v6 m ρ c) (W4_v31 m ρ c)

/-- A vector [32] viewed as one row [1, 32] is the vector broadcast along a new leading unit axis. -/
theorem rowCast_eq (x : FVec Ideal S32 .f32) :
    shapeCast S1x32 x shapeCasts_S32_S1x32 = Cert.ReferenceIdeal.ReadP.val_main_v46 (F := Ideal) x :=
  Cert.Mlp.rowCast_eq_bcast x shapeCasts_S32_S1x32 Cert.ReferenceIdeal.Gen.bcast_S32_S1x32_1

theorem W5_v46 : W5 m ρ c (Proc.devRef .tc main_v46) = Cert.ReferenceIdeal.ReadP.val_main_v46 (F := Ideal) (m ((c : Thread nD τ).loc main_arg3)) := by
  refine (row1_of (W4 m ρ c)).trans ?_
  rw [W4_arg3]
  exact rowCast_eq _
theorem W5_arg4 : W5 m ρ c (Proc.devRef .tc main_arg4) = (m ((c : Thread nD τ).loc main_arg4)) := (keep1_arg4 (W4 m ρ c)).trans (W4_arg4 m ρ c)
theorem W5_arg5 : W5 m ρ c (Proc.devRef .tc main_arg5) = (m ((c : Thread nD τ).loc main_arg5)) := (keep1_arg5 (W4 m ρ c)).trans (W4_arg5 m ρ c)
theorem W5_v3 : W5 m ρ c (Proc.devRef .tc main_v3) = Cert.ReferenceIdeal.ReadP.val_main_v3 (F := Ideal) (m ((c : Thread nD τ).loc main_arg1)) := (keep1_v3 (W4 m ρ c)).trans (W4_v3 m ρ c)
theorem W5_v6 : W5 m ρ c (Proc.devRef .tc main_v6) = Cert.ReferenceIdeal.ReadP.val_main_v6 (F := Ideal) (m ((c : Thread nD τ).loc main_arg1)) := (keep1_v6 (W4 m ρ c)).trans (W4_v6 m ρ c)
theorem W5_v31 : W5 m ρ c (Proc.devRef .tc main_v31) = Cert.ReferenceIdeal.ReadP.val_main_v31 (F := Ideal) (m ((c : Thread nD τ).loc main_arg1)) := (keep1_v31 (W4 m ρ c)).trans (W4_v31 m ρ c)

/-! ## Through the second region -/

/-- The second region leaves the product of the rectified, biased aggregation with the second weight matrix. -/
theorem W6_v47 : W6 m ρ c (Proc.devRef .tc main_v47)
    = Cert.ReferenceIdeal.ReadP.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ?_
  rw [RegionValue.final1 (V5 m ρ) c]
  have e45 : V5 m ρ c main_v45 = Cert.ReferenceIdeal.ReadP.val_main_v45 (F := Ideal) (m ((c : Thread nD τ).loc main_arg0)) (m ((c : Thread nD τ).loc main_arg1)) (m ((c : Thread nD τ).loc main_arg2)) := W5_v45 m ρ c
  have e46 : V5 m ρ c main_v46 = Cert.ReferenceIdeal.ReadP.val_main_v46 (F := Ideal) (m ((c : Thread nD τ).loc main_arg3)) := W5_v46 m ρ c
  have e4 : V5 m ρ c main_arg4 = (m ((c : Thread nD τ).loc main_arg4)) := W5_arg4 m ρ c
  rw [e45, e46, e4]
  simp only [Cert.ReferenceIdeal.ReadP.val_main_v50, Cert.ReferenceIdeal.ReadP.val_main_v49, Cert.ReferenceIdeal.ReadP.val_main_v48, Cert.ReferenceIdeal.ReadP.val_main_v47, Cert.ReferenceIdeal.ReadP.val_main_call1_v0, Cert.ReferenceIdeal.ReadP.val_main_call1_cst]

theorem W6_v3 : W6 m ρ c (Proc.devRef .tc main_v3) = Cert.ReferenceIdeal.ReadP.val_main_v3 (F := Ideal) (m ((c : Thread nD τ).loc main_arg1)) :=
  (W6_of_ne m ρ c main_v3 (by decide)).trans (W5_v3 m ρ c)
theorem W6_v6 : W6 m ρ c (Proc.devRef .tc main_v6) = Cert.ReferenceIdeal.ReadP.val_main_v6 (F := Ideal) (m ((c : Thread nD τ).loc main_arg1)) :=
  (W6_of_ne m ρ c main_v6 (by decide)).trans (W5_v6 m ρ c)
theorem W6_v31 : W6 m ρ c (Proc.devRef .tc main_v31) = Cert.ReferenceIdeal.ReadP.val_main_v31 (F := Ideal) (m ((c : Thread nD τ).loc main_arg1)) :=
  (W6_of_ne m ρ c main_v31 (by decide)).trans (W5_v31 m ρ c)
theorem W6_arg5 : W6 m ρ c (Proc.devRef .tc main_arg5) = (m ((c : Thread nD τ).loc main_arg5)) :=
  (W6_of_ne m ρ c main_arg5 (by decide)).trans (W5_arg5 m ρ c)

/-! ## The second aggregation -/

theorem W7_v60 : W7 m ρ c (Proc.devRef .tc main_v60)
    = Cert.ReferenceIdeal.ReadP.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  agg2_of _ _ _ _ _ (W6 m ρ c) (W6_v47 m ρ c) (W6_v3 m ρ c) (W6_v6 m ρ c) (W6_v31 m ρ c)

theorem W7_v61 : W7 m ρ c (Proc.devRef .tc main_v61) = Cert.ReferenceIdeal.ReadP.val_main_v64 (F := Ideal) (m ((c : Thread nD τ).loc main_arg5)) := by
  refine (row2_of (W6 m ρ c)).trans ?_
  rw [W6_arg5]
  exact rowCast_eq _

/-! ## Through the third region: the result -/

/-- The third region leaves the rectified, biased second aggregation: the reference's last stage of the six
    arguments. -/
theorem W8_v62 : W8 m ρ c (Proc.devRef .tc main_v62)
    = Cert.ReferenceIdeal.ReadP.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ?_
  rw [RegionValue.final2 (V7 m ρ) c]
  have e60 : V7 m ρ c main_v60 = Cert.ReferenceIdeal.ReadP.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := W7_v60 m ρ c
  have e61 : V7 m ρ c main_v61 = Cert.ReferenceIdeal.ReadP.val_main_v64 (F := Ideal) (m ((c : Thread nD τ).loc main_arg5)) := W7_v61 m ρ c
  rw [e60, e61]
  simp only [Cert.ReferenceIdeal.ReadP.val_main_v67, Cert.ReferenceIdeal.ReadP.val_main_v66, Cert.ReferenceIdeal.ReadP.val_main_v65, Cert.ReferenceIdeal.ReadP.val_main_call2_v0, Cert.ReferenceIdeal.ReadP.val_main_call2_cst]

end Cert.KernelIdeal.Fold

end
-- ==== Proof.lean ====
/-
  Every claim of this certificate. The kernel is a two-layer graph convolution: three tiled regions (the product
  x · W1; the product max (agg1 + b1, 0) · W2 with the operands narrowed to bf16 on the way into the matrix unit;
  max (agg2 + b2, 0)) among host operations that build the edge lists with self loops, the symmetric degree
  normalisation and the two weighted scatter-add aggregations. The reference performs the same host operations and
  computes the three dense stages on the host. On the extended reals a change of float format is the identity and
  both matrix products are the plain sum over the contracted coordinate, so the two programs compute the same
  function of the six arguments, index by index; no algebraic law beyond that is used and the finiteness of the
  inputs is never opened.
  The three frames: the two kernel programs' are the launch theorem over their segments, the reference's is its run
  with the result dropped. The idealization rewrote nothing, so there is nothing to preserve. For the value claim the
  kernel's run names its result as the last boundary of the fold of buffer contents through @main, that boundary is
  the reference's last stage of the arguments, and the reference's run ends at the same stage of its own arguments,
  which agree with the kernel's.
-/
import proofs.«167776_j23828478558291_1_alg».proof.Defs
import proofs.«167776_j23828478558291_1_alg».proof.Proof.Gen.Kernel
import proofs.«167776_j23828478558291_1_alg».proof.Proof.Gen.Kernel.Frame
import proofs.«167776_j23828478558291_1_alg».proof.Proof.Gen.KernelIdeal
import proofs.«167776_j23828478558291_1_alg».proof.Proof.Gen.KernelIdeal.Frame
import proofs.«167776_j23828478558291_1_alg».proof.Proof.Gen.ReferenceIdeal
import proofs.«167776_j23828478558291_1_alg».proof.Proof.Gen.Pre_finite_inputs
import proofs.«167776_j23828478558291_1_alg».proof.Proof.RefRun
import proofs.«167776_j23828478558291_1_alg».proof.Proof.RefRead
import proofs.«167776_j23828478558291_1_alg».proof.Proof.KernelRun
import proofs.«167776_j23828478558291_1_alg».proof.Proof.KernelValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the reference's last stage of the kernel's six arguments in their result buffers. -/
theorem algebraic : Cert.algebraic_KernelIdeal_ReferenceIdeal := by
  intro m ρ m' ρ' _ hagree
  refine ⟨fun c => Cert.ReferenceIdeal.ReadP.val_main_v67 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.W8_v62 m ρ c), (h c).2⟩)
      (Cert.KernelIdeal.Out.run_out (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v67_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
